-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x8192x64 : Shape := ⟨3, ![128, 8192, 64]⟩
abbrev S32x32 : Shape := ⟨2, ![32, 32]⟩
abbrev S95x32 : Shape := ⟨2, ![95, 32]⟩
abbrev S_ : Shape := ⟨0, ![]⟩

class Facts : Prop where
  bcast_S_S128x8192x64 : S_.BroadcastsInDim S128x8192x64 (![] : Fin 0 → Fin S128x8192x64.rank)
  reducesTo_S128x8192x64_S_d0_1_2 : S128x8192x64.ReducesTo [0, 1, 2] S_
  h_S_ : 0 < S_.numel
  bcast_S_S32x32 : S_.BroadcastsInDim S32x32 (![] : Fin 0 → Fin S32x32.rank)
  reducesTo_S32x32_S_d0_1 : S32x32.ReducesTo [0, 1] S_
  bcast_S_S95x32 : S_.BroadcastsInDim S95x32 (![] : Fin 0 → Fin S95x32.rank)
  reducesTo_S95x32_S_d0_1 : S95x32.ReducesTo [0, 1] S_

variable [Facts]

def fn {F : FTy → Type} [FloatOps F] (main_arg0 : FVec F S128x8192x64 .f32) (main_arg1 : FVec F S32x32 .f32) (main_arg2 : FVec F S95x32 .f32) : IVec S_ 1 :=
  let main_v0 : FVec F S128x8192x64 .f32 := Host.absf main_arg0
  let main_cst : FVec F S_ .f32 := constant S_ .f32 0x7F800000#32
  let main_v1 : FVec F S128x8192x64 .f32 := broadcastInDim S128x8192x64 ![] bcast_S_S128x8192x64 main_cst
  let main_v2 : IVec S128x8192x64 1 := cmpf .olt main_v0 main_v1
  let main_c : IVec S_ 1 := constantI S_ 1 1#1
  let main_v3 : IVec S_ 1 := (fun x v => Host.reduce IntOp.andi x v reducesTo_S128x8192x64_S_d0_1_2 h_S_) main_v2 main_c
  let main_v4 : FVec F S32x32 .f32 := Host.absf main_arg1
  let main_cst_0 : FVec F S_ .f32 := constant S_ .f32 0x7F800000#32
  let main_v5 : FVec F S32x32 .f32 := broadcastInDim S32x32 ![] bcast_S_S32x32 main_cst_0
  let main_v6 : IVec S32x32 1 := cmpf .olt main_v4 main_v5
  let main_c_1 : IVec S_ 1 := constantI S_ 1 1#1
  let main_v7 : IVec S_ 1 := (fun x v => Host.reduce IntOp.andi x v reducesTo_S32x32_S_d0_1 h_S_) main_v6 main_c_1
  let main_v8 : IVec S_ 1 := andi main_v3 main_v7
  let main_v9 : FVec F S95x32 .f32 := Host.absf main_arg2
  let main_cst_2 : FVec F S_ .f32 := constant S_ .f32 0x7F800000#32
  let main_v10 : FVec F S95x32 .f32 := broadcastInDim S95x32 ![] bcast_S_S95x32 main_cst_2
  let main_v11 : IVec S95x32 1 := cmpf .olt main_v9 main_v10
  let main_c_3 : IVec S_ 1 := constantI S_ 1 1#1
  let main_v12 : IVec S_ 1 := (fun x v => Host.reduce IntOp.andi x v reducesTo_S95x32_S_d0_1 h_S_) main_v11 main_c_3
  let main_v13 : IVec S_ 1 := andi main_v8 main_v12
  main_v13
-- ==== Kernel.lean ====
abbrev S128x8192x64 : Shape := ⟨3, ![128, 8192, 64]⟩
abbrev S32x32 : Shape := ⟨2, ![32, 32]⟩
abbrev S95x32 : Shape := ⟨2, ![95, 32]⟩
abbrev S32 : Shape := ⟨1, ![32]⟩
abbrev S1x32 : Shape := ⟨2, ![1, 32]⟩
abbrev S32x1 : Shape := ⟨2, ![32, 1]⟩
abbrev S_ : Shape := ⟨0, ![]⟩
abbrev S96x32 : Shape := ⟨2, ![96, 32]⟩
abbrev S96 : Shape := ⟨1, ![96]⟩
abbrev S96x1 : Shape := ⟨2, ![96, 1]⟩
abbrev S128x128 : Shape := ⟨2, ![128, 128]⟩
abbrev S1 : Shape := ⟨1, ![1]⟩
abbrev S2 : Shape := ⟨1, ![2]⟩
abbrev S96x32x1 : Shape := ⟨3, ![96, 32, 1]⟩
abbrev S96x32x2 : Shape := ⟨3, ![96, 32, 2]⟩
abbrev S128x524288 : Shape := ⟨2, ![128, 524288]⟩
abbrev S128x8192 : Shape := ⟨2, ![128, 8192]⟩

abbrev nBuf : Space → Nat
  | .hbm => 91
  | .vmem => 5
  | .smem => 0
  | _ => 0

abbrev bufTy : (tb : Table) → Fin (tcTables nBuf tb) → BufTy
  | .hbm, ⟨0, _⟩ => ⟨S128x8192x64, .f32⟩
  | .hbm, ⟨1, _⟩ => ⟨S32x32, .f32⟩
  | .hbm, ⟨2, _⟩ => ⟨S95x32, .f32⟩
  | .hbm, ⟨3, _⟩ => ⟨S32, .i32⟩
  | .hbm, ⟨4, _⟩ => ⟨S1x32, .i32⟩
  | .hbm, ⟨5, _⟩ => ⟨S32, .i32⟩
  | .hbm, ⟨6, _⟩ => ⟨S32x1, .i32⟩
  | .hbm, ⟨7, _⟩ => ⟨S32x32, .i32⟩
  | .hbm, ⟨8, _⟩ => ⟨S32x32, .i32⟩
  | .hbm, ⟨9, _⟩ => ⟨S32x32, .i1⟩
  | .hbm, ⟨10, _⟩ => ⟨S_, .f32⟩
  | .hbm, ⟨11, _⟩ => ⟨S_, .f32⟩
  | .hbm, ⟨12, _⟩ => ⟨S32x32, .f32⟩
  | .hbm, ⟨13, _⟩ => ⟨S32x32, .f32⟩
  | .hbm, ⟨14, _⟩ => ⟨S_, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S32x1, .f32⟩
  | .hbm, ⟨20, _⟩ => ⟨S32x32, .f32⟩
  | .hbm, ⟨21, _⟩ => ⟨S32x32, .f32⟩
  | .hbm, ⟨22, _⟩ => ⟨S32x32, .f32⟩
  | .hbm, ⟨23, _⟩ => ⟨S_, .f32⟩
  | .hbm, ⟨24, _⟩ => ⟨S32, .f32⟩
  | .hbm, ⟨25, _⟩ => ⟨S32x1, .f32⟩
  | .hbm, ⟨26, _⟩ => ⟨S32x32, .f32⟩
  | .hbm, ⟨27, _⟩ => ⟨S32x32, .f32⟩
  | .hbm, ⟨28, _⟩ => ⟨S1x32, .f32⟩
  | .hbm, ⟨29, _⟩ => ⟨S96x32, .f32⟩
  | .hbm, ⟨30, _⟩ => ⟨S_, .f32⟩
  | .hbm, ⟨31, _⟩ => ⟨S96, .f32⟩
  | .hbm, ⟨32, _⟩ => ⟨S_, .f32⟩
  | .hbm, ⟨33, _⟩ => ⟨S96, .f32⟩
  | .hbm, ⟨34, _⟩ => ⟨S96, .f32⟩
  | .hbm, ⟨35, _⟩ => ⟨S96x1, .f32⟩
  | .hbm, ⟨36, _⟩ => ⟨S96x32, .f32⟩
  | .hbm, ⟨37, _⟩ => ⟨S96x32, .f32⟩
  | .hbm, ⟨38, _⟩ => ⟨S96x32, .f32⟩
  | .hbm, ⟨39, _⟩ => ⟨S_, .f32⟩
  | .hbm, ⟨40, _⟩ => ⟨S96, .f32⟩
  | .hbm, ⟨41, _⟩ => ⟨S96x1, .f32⟩
  | .hbm, ⟨42, _⟩ => ⟨S96x32, .f32⟩
  | .hbm, ⟨43, _⟩ => ⟨S96x32, .f32⟩
  | .hbm, ⟨44, _⟩ => ⟨S_, .f32⟩
  | .hbm, ⟨45, _⟩ => ⟨S128x128, .f32⟩
  | .hbm, ⟨46, _⟩ => ⟨S_, .i32⟩
  | .hbm, ⟨47, _⟩ => ⟨S1, .i32⟩
  | .hbm, ⟨48, _⟩ => ⟨S_, .i32⟩
  | .hbm, ⟨49, _⟩ => ⟨S1, .i32⟩
  | .hbm, ⟨50, _⟩ => ⟨S2, .i32⟩
  | .hbm, ⟨51, _⟩ => ⟨S128x128, .f32⟩
  | .hbm, ⟨52, _⟩ => ⟨S96, .i32⟩
  | .hbm, ⟨53, _⟩ => ⟨S_, .i32⟩
  | .hbm, ⟨54, _⟩ => ⟨S96, .i32⟩
  | .hbm, ⟨55, _⟩ => ⟨S96, .i32⟩
  | .hbm, ⟨56, _⟩ => ⟨S_, .i32⟩
  | .hbm, ⟨57, _⟩ => ⟨S96, .i32⟩
  | .hbm, ⟨58, _⟩ => ⟨S96, .i32⟩
  | .hbm, ⟨59, _⟩ => ⟨S_, .i32⟩
  | .hbm, ⟨60, _⟩ => ⟨S96, .i32⟩
  | .hbm, ⟨61, _⟩ => ⟨S96, .i32⟩
  | .hbm, ⟨62, _⟩ => ⟨S96x1, .i32⟩
  | .hbm, ⟨63, _⟩ => ⟨S1x32, .i32⟩
  | .hbm, ⟨64, _⟩ => ⟨S96x32, .i32⟩
  | .hbm, ⟨65, _⟩ => ⟨S96x32, .i32⟩
  | .hbm, ⟨66, _⟩ => ⟨S96x32, .i32⟩
  | .hbm, ⟨67, _⟩ => ⟨S96x1, .i32⟩
  | .hbm, ⟨68, _⟩ => ⟨S_, .i32⟩
  | .hbm, ⟨69, _⟩ => ⟨S96x1, .i32⟩
  | .hbm, ⟨70, _⟩ => ⟨S96x1, .i1⟩
  | .hbm, ⟨71, _⟩ => ⟨S_, .i32⟩
  | .hbm, ⟨72, _⟩ => ⟨S96x1, .i32⟩
  | .hbm, ⟨73, _⟩ => ⟨S96x1, .i32⟩
  | .hbm, ⟨74, _⟩ => ⟨S96x1, .i32⟩
  | .hbm, ⟨75, _⟩ => ⟨S_, .i32⟩
  | .hbm, ⟨76, _⟩ => ⟨S96x32, .i32⟩
  | .hbm, ⟨77, _⟩ => ⟨S96x32, .i1⟩
  | .hbm, ⟨78, _⟩ => ⟨S_, .i32⟩
  | .hbm, ⟨79, _⟩ => ⟨S96x32, .i32⟩
  | .hbm, ⟨80, _⟩ => ⟨S96x32, .i32⟩
  | .hbm, ⟨81, _⟩ => ⟨S96x32, .i32⟩
  | .hbm, ⟨82, _⟩ => ⟨S96x32, .i32⟩
  | .hbm, ⟨83, _⟩ => ⟨S96x32x1, .i32⟩
  | .hbm, ⟨84, _⟩ => ⟨S96x32x1, .i32⟩
  | .hbm, ⟨85, _⟩ => ⟨S96x32x2, .i32⟩
  | .hbm, ⟨86, _⟩ => ⟨S128x128, .f32⟩
  | .hbm, ⟨87, _⟩ => ⟨S128x128, .bf16⟩
  | .hbm, ⟨88, _⟩ => ⟨S128x524288, .f32⟩
  | .hbm, ⟨89, _⟩ => ⟨S128x524288, .f32⟩
  | .hbm, ⟨90, _⟩ => ⟨S128x8192x64, .f32⟩
  | .local _ .vmem, ⟨0, _⟩ => ⟨S128x128, .bf16⟩
  | .local _ .vmem, ⟨1, _⟩ => ⟨S128x8192, .f32⟩
  | .local _ .vmem, ⟨2, _⟩ => ⟨S128x8192, .f32⟩
  | .local _ .vmem, ⟨3, _⟩ => ⟨S128x8192, .f32⟩
  | .local _ .vmem, ⟨4, _⟩ => ⟨S128x8192, .f32⟩
  | _, _ => ⟨S128x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_call0_cst : Ref sig .tc := ⟨.hbm, 10, rfl⟩
abbrev main_call0_call0_v0 : Ref sig .tc := ⟨.hbm, 11, rfl⟩
abbrev main_call0_call0_v1 : Ref sig .tc := ⟨.hbm, 12, rfl⟩
abbrev main_call0_v7 : Ref sig .tc := ⟨.hbm, 13, rfl⟩
abbrev main_call0_cst_0 : Ref sig .tc := ⟨.hbm, 14, rfl⟩
abbrev main_call0_v8 : Ref sig .tc := ⟨.hbm, 15, rfl⟩
abbrev main_call0_cst_1 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst_2 : Ref sig .tc := ⟨.hbm, 23, rfl⟩
abbrev main_call0_v15 : Ref sig .tc := ⟨.hbm, 24, rfl⟩
abbrev main_call0_v16 : Ref sig .tc := ⟨.hbm, 25, rfl⟩
abbrev main_call0_v17 : Ref sig .tc := ⟨.hbm, 26, rfl⟩
abbrev main_call0_v18 : Ref sig .tc := ⟨.hbm, 27, rfl⟩
abbrev main_call0_v19 : Ref sig .tc := ⟨.hbm, 28, rfl⟩
abbrev main_call0_v20 : Ref sig .tc := ⟨.hbm, 29, rfl⟩
abbrev main_call0_cst_3 : Ref sig .tc := ⟨.hbm, 30, rfl⟩
abbrev main_call0_v21 : Ref sig .tc := ⟨.hbm, 31, rfl⟩
abbrev main_call0_cst_4 : Ref sig .tc := ⟨.hbm, 32, rfl⟩
abbrev main_call0_v22 : Ref sig .tc := ⟨.hbm, 33, rfl⟩
abbrev main_call0_v23 : Ref sig .tc := ⟨.hbm, 34, rfl⟩
abbrev main_call0_v24 : Ref sig .tc := ⟨.hbm, 35, rfl⟩
abbrev main_call0_v25 : Ref sig .tc := ⟨.hbm, 36, rfl⟩
abbrev main_call0_v26 : Ref sig .tc := ⟨.hbm, 37, rfl⟩
abbrev main_call0_v27 : Ref sig .tc := ⟨.hbm, 38, rfl⟩
abbrev main_call0_cst_5 : Ref sig .tc := ⟨.hbm, 39, rfl⟩
abbrev main_call0_v28 : Ref sig .tc := ⟨.hbm, 40, rfl⟩
abbrev main_call0_v29 : Ref sig .tc := ⟨.hbm, 41, rfl⟩
abbrev main_call0_v30 : Ref sig .tc := ⟨.hbm, 42, rfl⟩
abbrev main_call0_v31 : Ref sig .tc := ⟨.hbm, 43, rfl⟩
abbrev main_call0_cst_6 : Ref sig .tc := ⟨.hbm, 44, rfl⟩
abbrev main_call0_v32 : Ref sig .tc := ⟨.hbm, 45, rfl⟩
abbrev main_call0_c : Ref sig .tc := ⟨.hbm, 46, rfl⟩
abbrev main_call0_v33 : Ref sig .tc := ⟨.hbm, 47, rfl⟩
abbrev main_call0_c_7 : Ref sig .tc := ⟨.hbm, 48, rfl⟩
abbrev main_call0_v34 : Ref sig .tc := ⟨.hbm, 49, rfl⟩
abbrev main_call0_v35 : Ref sig .tc := ⟨.hbm, 50, rfl⟩
abbrev main_call0_v36 : Ref sig .tc := ⟨.hbm, 51, rfl⟩
abbrev main_call0_v37 : Ref sig .tc := ⟨.hbm, 52, rfl⟩
abbrev main_call0_c_8 : Ref sig .tc := ⟨.hbm, 53, rfl⟩
abbrev main_call0_v38 : Ref sig .tc := ⟨.hbm, 54, rfl⟩
abbrev main_call0_v39 : Ref sig .tc := ⟨.hbm, 55, rfl⟩
abbrev main_call0_c_9 : Ref sig .tc := ⟨.hbm, 56, rfl⟩
abbrev main_call0_v40 : Ref sig .tc := ⟨.hbm, 57, rfl⟩
abbrev main_call0_v41 : Ref sig .tc := ⟨.hbm, 58, rfl⟩
abbrev main_call0_c_10 : Ref sig .tc := ⟨.hbm, 59, rfl⟩
abbrev main_call0_v42 : Ref sig .tc := ⟨.hbm, 60, rfl⟩
abbrev main_call0_v43 : Ref sig .tc := ⟨.hbm, 61, rfl⟩
abbrev main_call0_v44 : Ref sig .tc := ⟨.hbm, 62, rfl⟩
abbrev main_call0_v45 : Ref sig .tc := ⟨.hbm, 63, rfl⟩
abbrev main_call0_v46 : Ref sig .tc := ⟨.hbm, 64, rfl⟩
abbrev main_call0_v47 : Ref sig .tc := ⟨.hbm, 65, rfl⟩
abbrev main_call0_v48 : Ref sig .tc := ⟨.hbm, 66, rfl⟩
abbrev main_call0_v49 : Ref sig .tc := ⟨.hbm, 67, rfl⟩
abbrev main_call0_c_11 : Ref sig .tc := ⟨.hbm, 68, rfl⟩
abbrev main_call0_v50 : Ref sig .tc := ⟨.hbm, 69, rfl⟩
abbrev main_call0_v51 : Ref sig .tc := ⟨.hbm, 70, rfl⟩
abbrev main_call0_c_12 : Ref sig .tc := ⟨.hbm, 71, rfl⟩
abbrev main_call0_v52 : Ref sig .tc := ⟨.hbm, 72, rfl⟩
abbrev main_call0_v53 : Ref sig .tc := ⟨.hbm, 73, rfl⟩
abbrev main_call0_v54 : Ref sig .tc := ⟨.hbm, 74, rfl⟩
abbrev main_call0_c_13 : Ref sig .tc := ⟨.hbm, 75, rfl⟩
abbrev main_call0_v55 : Ref sig .tc := ⟨.hbm, 76, rfl⟩
abbrev main_call0_v56 : Ref sig .tc := ⟨.hbm, 77, rfl⟩
abbrev main_call0_c_14 : Ref sig .tc := ⟨.hbm, 78, rfl⟩
abbrev main_call0_v57 : Ref sig .tc := ⟨.hbm, 79, rfl⟩
abbrev main_call0_v58 : Ref sig .tc := ⟨.hbm, 80, rfl⟩
abbrev main_call0_v59 : Ref sig .tc := ⟨.hbm, 81, rfl⟩
abbrev main_call0_v60 : Ref sig .tc := ⟨.hbm, 82, rfl⟩
abbrev main_call0_v61 : Ref sig .tc := ⟨.hbm, 83, rfl⟩
abbrev main_call0_v62 : Ref sig .tc := ⟨.hbm, 84, rfl⟩
abbrev main_call0_v63 : Ref sig .tc := ⟨.hbm, 85, rfl⟩
abbrev main_call0_v64 : Ref sig .tc := ⟨.hbm, 86, rfl⟩
abbrev main_call0_v65 : Ref sig .tc := ⟨.hbm, 87, rfl⟩
abbrev main_call0_v66 : Ref sig .tc := ⟨.hbm, 88, rfl⟩
abbrev main_call0_v67 : Ref sig .tc := ⟨.hbm, 89, rfl⟩
abbrev main_v0 : Ref sig .tc := ⟨.hbm, 90, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S128x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S32_S1x32_1 : S32.BroadcastsInDim S1x32 (![1] : Fin 1 → Fin S1x32.rank)
  bcast_S32_S32x1_0 : S32.BroadcastsInDim S32x1 (![0] : Fin 1 → Fin S32x1.rank)
  bcast_S1x32_S32x32_0_1 : S1x32.BroadcastsInDim S32x32 (![0, 1] : Fin 2 → Fin S32x32.rank)
  bcast_S32x1_S32x32_0_1 : S32x1.BroadcastsInDim S32x32 (![0, 1] : Fin 2 → Fin S32x32.rank)
  bcast_S_S32x32 : S_.BroadcastsInDim S32x32 (![] : Fin 0 → Fin S32x32.rank)
  reducesTo_S32x32_S32_d1 : S32x32.ReducesTo [1] S32
  h_S_ : 0 < S_.numel
  bcast_S_S32 : S_.BroadcastsInDim S32 (![] : Fin 0 → Fin S32.rank)
  slices_S32x32_S1x32_31_0 : S32x32.Slices ![31, 0] S1x32
  concatenates_S1x32_S95x32_S96x32_d0 : Shape.Concatenates [S1x32, S95x32] S96x32 0
  reducesTo_S96x32_S96_d1 : S96x32.ReducesTo [1] S96
  bcast_S_S96 : S_.BroadcastsInDim S96 (![] : Fin 0 → Fin S96.rank)
  bcast_S96_S96x1_0 : S96.BroadcastsInDim S96x1 (![0] : Fin 1 → Fin S96x1.rank)
  bcast_S96x1_S96x32_0_1 : S96x1.BroadcastsInDim S96x32 (![0, 1] : Fin 2 → Fin S96x32.rank)
  bcast_S_S128x128 : S_.BroadcastsInDim S128x128 (![] : Fin 0 → Fin S128x128.rank)
  bcast_S_S1 : S_.BroadcastsInDim S1 (![] : Fin 0 → Fin S1.rank)
  concatenates_S1_S1_S2_d0 : Shape.Concatenates [S1, S1] S2 0
  bcast_S1x32_S96x32_0_1 : S1x32.BroadcastsInDim S96x32 (![0, 1] : Fin 2 → Fin S96x32.rank)
  bcast_S_S96x1 : S_.BroadcastsInDim S96x1 (![] : Fin 0 → Fin S96x1.rank)
  bcast_S_S96x32 : S_.BroadcastsInDim S96x32 (![] : Fin 0 → Fin S96x32.rank)
  bcast_S96x32_S96x32x1_0_1 : S96x32.BroadcastsInDim S96x32x1 (![0, 1] : Fin 2 → Fin S96x32x1.rank)
  concatenates_S96x32x1_S96x32x1_S96x32x2_d2 : Shape.Concatenates [S96x32x1, S96x32x1] S96x32x2 2
  bitsLt_bf16_f32 : FTy.bits .bf16 < FTy.bits .f32
  shapeCasts_S128x8192x64_S128x524288 : S128x8192x64.ShapeCasts S128x524288
  shapeCasts_S128x524288_S128x8192x64 : S128x524288.ShapeCasts S128x8192x64
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x8192_S128x8192_0_0 : ∀ a, (![0, 0] : Fin 2 → Nat) a + S128x8192.size a ≤ S128x8192.size a
  h_S128x8192 : 0 < S128x8192.numel
  shapeCasts_S128x8192_S128x8192 : S128x8192.ShapeCasts S128x8192
  scatter_S128x128_S2_S32x32_01_n_01_0_wf : ScatterDims.WF S128x128 S2 S32x32 [0, 1] [] [0, 1] 0
  scatter_S128x128_S96x32x2_S96x32_n_01_01_2_wf : ScatterDims.WF S128x128 S96x32x2 S96x32 [] [0, 1] [0, 1] 2
  dot_S128x128_S128x8192_S128x8192_1_0_0_1_n_n_wf : DotDims.WF S128x128 S128x8192 S128x8192 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S128x128.size a
  hwx0_0 : ∀ i : grid0.Coords, EltTy.bits .bf16 = 32 ∨ (Rect.block (s := S128x128) S128x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x8192.size a ≤ S128x524288.size a
  hwx0_1 : ∀ i : grid0.Coords, EltTy.bits .f32 = 32 ∨ (Rect.block (s := S128x524288) S128x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x8192.size a ≤ S128x524288.size a
  hwx0_2 : ∀ i : grid0.Coords, EltTy.bits .f32 = 32 ∨ (Rect.block (s := S128x524288) S128x8192.size (cc0_transform_2 i) (hinb0_2 i)).WholeWords (EltTy.packing .f32)

variable [Facts₀]

def scatter_S128x128_S2_S32x32_01_n_01_0 : ScatterDims S128x128 S2 S32x32 where
  updateWindowDims := [0, 1]
  insertedWindowDims := []
  scatterDimsToOperandDims := [0, 1]
  indexVectorDim := 0
  wf := scatter_S128x128_S2_S32x32_01_n_01_0_wf
def scatter_S128x128_S96x32x2_S96x32_n_01_01_2 : ScatterDims S128x128 S96x32x2 S96x32 where
  updateWindowDims := []
  insertedWindowDims := [0, 1]
  scatterDimsToOperandDims := [0, 1]
  indexVectorDim := 2
  wf := scatter_S128x128_S96x32x2_S96x32_n_01_01_2_wf
def dot_S128x128_S128x8192_S128x8192_1_0_0_1_n_n : DotDims S128x128 S128x8192 S128x8192 where
  lhsContracting := [1]
  rhsContracting := [0]
  lhsNonContracting := [0]
  rhsNonContracting := [1]
  lhsBatch := []
  rhsBatch := []
  wf := dot_S128x128_S128x8192_S128x8192_1_0_0_1_n_n_wf

abbrev win0_0 : Pipeline.Window sig grid0 :=
  Pipeline.Window.ofSpec (Memref.whole main_call0_v65) S128x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_call0_v66) S128x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v67) S128x8192.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S128x8192x64 : Shape := ⟨3, ![128, 8192, 64]⟩
abbrev S32x32 : Shape := ⟨2, ![32, 32]⟩
abbrev S95x32 : Shape := ⟨2, ![95, 32]⟩
abbrev S32 : Shape := ⟨1, ![32]⟩
abbrev S1x32 : Shape := ⟨2, ![1, 32]⟩
abbrev S32x1 : Shape := ⟨2, ![32, 1]⟩
abbrev S_ : Shape := ⟨0, ![]⟩
abbrev S96x32 : Shape := ⟨2, ![96, 32]⟩
abbrev S96 : Shape := ⟨1, ![96]⟩
abbrev S96x1 : Shape := ⟨2, ![96, 1]⟩
abbrev S128x128 : Shape := ⟨2, ![128, 128]⟩
abbrev S1 : Shape := ⟨1, ![1]⟩
abbrev S2 : Shape := ⟨1, ![2]⟩
abbrev S96x32x1 : Shape := ⟨3, ![96, 32, 1]⟩
abbrev S96x32x2 : Shape := ⟨3, ![96, 32, 2]⟩
abbrev S128x524288 : Shape := ⟨2, ![128, 524288]⟩

abbrev nBuf : Space → Nat
  | .hbm => 90
  | .vmem => 0
  | .smem => 0
  | _ => 0

abbrev bufTy : (tb : Table) → Fin (tcTables nBuf tb) → BufTy
  | .hbm, ⟨0, _⟩ => ⟨S128x8192x64, .f32⟩
  | .hbm, ⟨1, _⟩ => ⟨S32x32, .f32⟩
  | .hbm, ⟨2, _⟩ => ⟨S95x32, .f32⟩
  | .hbm, ⟨3, _⟩ => ⟨S32, .i32⟩
  | .hbm, ⟨4, _⟩ => ⟨S1x32, .i32⟩
  | .hbm, ⟨5, _⟩ => ⟨S32, .i32⟩
  | .hbm, ⟨6, _⟩ => ⟨S32x1, .i32⟩
  | .hbm, ⟨7, _⟩ => ⟨S32x32, .i32⟩
  | .hbm, ⟨8, _⟩ => ⟨S32x32, .i32⟩
  | .hbm, ⟨9, _⟩ => ⟨S32x32, .i1⟩
  | .hbm, ⟨10, _⟩ => ⟨S_, .f32⟩
  | .hbm, ⟨11, _⟩ => ⟨S_, .f32⟩
  | .hbm, ⟨12, _⟩ => ⟨S32x32, .f32⟩
  | .hbm, ⟨13, _⟩ => ⟨S32x32, .f32⟩
  | .hbm, ⟨14, _⟩ => ⟨S_, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S32x1, .f32⟩
  | .hbm, ⟨20, _⟩ => ⟨S32x32, .f32⟩
  | .hbm, ⟨21, _⟩ => ⟨S32x32, .f32⟩
  | .hbm, ⟨22, _⟩ => ⟨S32x32, .f32⟩
  | .hbm, ⟨23, _⟩ => ⟨S_, .f32⟩
  | .hbm, ⟨24, _⟩ => ⟨S32, .f32⟩
  | .hbm, ⟨25, _⟩ => ⟨S32x1, .f32⟩
  | .hbm, ⟨26, _⟩ => ⟨S32x32, .f32⟩
  | .hbm, ⟨27, _⟩ => ⟨S32x32, .f32⟩
  | .hbm, ⟨28, _⟩ => ⟨S1x32, .f32⟩
  | .hbm, ⟨29, _⟩ => ⟨S96x32, .f32⟩
  | .hbm, ⟨30, _⟩ => ⟨S_, .f32⟩
  | .hbm, ⟨31, _⟩ => ⟨S96, .f32⟩
  | .hbm, ⟨32, _⟩ => ⟨S_, .f32⟩
  | .hbm, ⟨33, _⟩ => ⟨S96, .f32⟩
  | .hbm, ⟨34, _⟩ => ⟨S96, .f32⟩
  | .hbm, ⟨35, _⟩ => ⟨S96x1, .f32⟩
  | .hbm, ⟨36, _⟩ => ⟨S96x32, .f32⟩
  | .hbm, ⟨37, _⟩ => ⟨S96x32, .f32⟩
  | .hbm, ⟨38, _⟩ => ⟨S96x32, .f32⟩
  | .hbm, ⟨39, _⟩ => ⟨S_, .f32⟩
  | .hbm, ⟨40, _⟩ => ⟨S96, .f32⟩
  | .hbm, ⟨41, _⟩ => ⟨S96x1, .f32⟩
  | .hbm, ⟨42, _⟩ => ⟨S96x32, .f32⟩
  | .hbm, ⟨43, _⟩ => ⟨S96x32, .f32⟩
  | .hbm, ⟨44, _⟩ => ⟨S_, .f32⟩
  | .hbm, ⟨45, _⟩ => ⟨S128x128, .f32⟩
  | .hbm, ⟨46, _⟩ => ⟨S_, .i32⟩
  | .hbm, ⟨47, _⟩ => ⟨S1, .i32⟩
  | .hbm, ⟨48, _⟩ => ⟨S_, .i32⟩
  | .hbm, ⟨49, _⟩ => ⟨S1, .i32⟩
  | .hbm, ⟨50, _⟩ => ⟨S2, .i32⟩
  | .hbm, ⟨51, _⟩ => ⟨S128x128, .f32⟩
  | .hbm, ⟨52, _⟩ => ⟨S96, .i32⟩
  | .hbm, ⟨53, _⟩ => ⟨S_, .i32⟩
  | .hbm, ⟨54, _⟩ => ⟨S96, .i32⟩
  | .hbm, ⟨55, _⟩ => ⟨S96, .i32⟩
  | .hbm, ⟨56, _⟩ => ⟨S_, .i32⟩
  | .hbm, ⟨57, _⟩ => ⟨S96, .i32⟩
  | .hbm, ⟨58, _⟩ => ⟨S96, .i32⟩
  | .hbm, ⟨59, _⟩ => ⟨S_, .i32⟩
  | .hbm, ⟨60, _⟩ => ⟨S96, .i32⟩
  | .hbm, ⟨61, _⟩ => ⟨S96, .i32⟩
  | .hbm, ⟨62, _⟩ => ⟨S96x1, .i32⟩
  | .hbm, ⟨63, _⟩ => ⟨S1x32, .i32⟩
  | .hbm, ⟨64, _⟩ => ⟨S96x32, .i32⟩
  | .hbm, ⟨65, _⟩ => ⟨S96x32, .i32⟩
  | .hbm, ⟨66, _⟩ => ⟨S96x32, .i32⟩
  | .hbm, ⟨67, _⟩ => ⟨S96x1, .i32⟩
  | .hbm, ⟨68, _⟩ => ⟨S_, .i32⟩
  | .hbm, ⟨69, _⟩ => ⟨S96x1, .i32⟩
  | .hbm, ⟨70, _⟩ => ⟨S96x1, .i1⟩
  | .hbm, ⟨71, _⟩ => ⟨S_, .i32⟩
  | .hbm, ⟨72, _⟩ => ⟨S96x1, .i32⟩
  | .hbm, ⟨73, _⟩ => ⟨S96x1, .i32⟩
  | .hbm, ⟨74, _⟩ => ⟨S96x1, .i32⟩
  | .hbm, ⟨75, _⟩ => ⟨S_, .i32⟩
  | .hbm, ⟨76, _⟩ => ⟨S96x32, .i32⟩
  | .hbm, ⟨77, _⟩ => ⟨S96x32, .i1⟩
  | .hbm, ⟨78, _⟩ => ⟨S_, .i32⟩
  | .hbm, ⟨79, _⟩ => ⟨S96x32, .i32⟩
  | .hbm, ⟨80, _⟩ => ⟨S96x32, .i32⟩
  | .hbm, ⟨81, _⟩ => ⟨S96x32, .i32⟩
  | .hbm, ⟨82, _⟩ => ⟨S96x32, .i32⟩
  | .hbm, ⟨83, _⟩ => ⟨S96x32x1, .i32⟩
  | .hbm, ⟨84, _⟩ => ⟨S96x32x1, .i32⟩
  | .hbm, ⟨85, _⟩ => ⟨S96x32x2, .i32⟩
  | .hbm, ⟨86, _⟩ => ⟨S128x128, .f32⟩
  | .hbm, ⟨87, _⟩ => ⟨S128x524288, .f32⟩
  | .hbm, ⟨88, _⟩ => ⟨S128x524288, .f32⟩
  | .hbm, ⟨89, _⟩ => ⟨S128x8192x64, .f32⟩
  | _, _ => ⟨S128x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_call0_v0 : Ref sig .tc := ⟨.hbm, 11, rfl⟩
abbrev main_call0_v1 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_c : Ref sig .tc := ⟨.hbm, 46, rfl⟩
abbrev main_v33 : Ref sig .tc := ⟨.hbm, 47, rfl⟩
abbrev main_c_7 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_c_8 : Ref sig .tc := ⟨.hbm, 53, rfl⟩
abbrev main_v38 : Ref sig .tc := ⟨.hbm, 54, rfl⟩
abbrev main_v39 : Ref sig .tc := ⟨.hbm, 55, rfl⟩
abbrev main_c_9 : Ref sig .tc := ⟨.hbm, 56, rfl⟩
abbrev main_v40 : Ref sig .tc := ⟨.hbm, 57, rfl⟩
abbrev main_v41 : Ref sig .tc := ⟨.hbm, 58, rfl⟩
abbrev main_c_10 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_c_11 : Ref sig .tc := ⟨.hbm, 68, rfl⟩
abbrev main_v50 : Ref sig .tc := ⟨.hbm, 69, rfl⟩
abbrev main_v51 : Ref sig .tc := ⟨.hbm, 70, rfl⟩
abbrev main_c_12 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_c_13 : Ref sig .tc := ⟨.hbm, 75, rfl⟩
abbrev main_v55 : Ref sig .tc := ⟨.hbm, 76, rfl⟩
abbrev main_v56 : Ref sig .tc := ⟨.hbm, 77, rfl⟩
abbrev main_c_14 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S32_S32x1_0 : S32.BroadcastsInDim S32x1 (![0] : Fin 1 → Fin S32x1.rank)
  bcast_S1x32_S32x32_0_1 : S1x32.BroadcastsInDim S32x32 (![0, 1] : Fin 2 → Fin S32x32.rank)
  bcast_S32x1_S32x32_0_1 : S32x1.BroadcastsInDim S32x32 (![0, 1] : Fin 2 → Fin S32x32.rank)
  bcast_S_S32x32 : S_.BroadcastsInDim S32x32 (![] : Fin 0 → Fin S32x32.rank)
  reducesTo_S32x32_S32_d1 : S32x32.ReducesTo [1] S32
  h_S_ : 0 < S_.numel
  bcast_S_S32 : S_.BroadcastsInDim S32 (![] : Fin 0 → Fin S32.rank)
  slices_S32x32_S1x32_31_0 : S32x32.Slices ![31, 0] S1x32
  concatenates_S1x32_S95x32_S96x32_d0 : Shape.Concatenates [S1x32, S95x32] S96x32 0
  reducesTo_S96x32_S96_d1 : S96x32.ReducesTo [1] S96
  bcast_S_S96 : S_.BroadcastsInDim S96 (![] : Fin 0 → Fin S96.rank)
  bcast_S96_S96x1_0 : S96.BroadcastsInDim S96x1 (![0] : Fin 1 → Fin S96x1.rank)
  bcast_S96x1_S96x32_0_1 : S96x1.BroadcastsInDim S96x32 (![0, 1] : Fin 2 → Fin S96x32.rank)
  bcast_S_S128x128 : S_.BroadcastsInDim S128x128 (![] : Fin 0 → Fin S128x128.rank)
  bcast_S_S1 : S_.BroadcastsInDim S1 (![] : Fin 0 → Fin S1.rank)
  concatenates_S1_S1_S2_d0 : Shape.Concatenates [S1, S1] S2 0
  bcast_S1x32_S96x32_0_1 : S1x32.BroadcastsInDim S96x32 (![0, 1] : Fin 2 → Fin S96x32.rank)
  bcast_S_S96x1 : S_.BroadcastsInDim S96x1 (![] : Fin 0 → Fin S96x1.rank)
  bcast_S_S96x32 : S_.BroadcastsInDim S96x32 (![] : Fin 0 → Fin S96x32.rank)
  bcast_S96x32_S96x32x1_0_1 : S96x32.BroadcastsInDim S96x32x1 (![0, 1] : Fin 2 → Fin S96x32x1.rank)
  concatenates_S96x32x1_S96x32x1_S96x32x2_d2 : Shape.Concatenates [S96x32x1, S96x32x1] S96x32x2 2
  shapeCasts_S128x8192x64_S128x524288 : S128x8192x64.ShapeCasts S128x524288
  shapeCasts_S128x524288_S128x8192x64 : S128x524288.ShapeCasts S128x8192x64
  scatter_S128x128_S2_S32x32_01_n_01_0_wf : ScatterDims.WF S128x128 S2 S32x32 [0, 1] [] [0, 1] 0
  scatter_S128x128_S96x32x2_S96x32_n_01_01_2_wf : ScatterDims.WF S128x128 S96x32x2 S96x32 [] [0, 1] [0, 1] 2
  dot_S128x128_S128x524288_S128x524288_1_0_0_1_n_n_wf : DotDims.WF S128x128 S128x524288 S128x524288 [1] [0] [0] [1] [] []

variable [Facts₀]

def scatter_S128x128_S2_S32x32_01_n_01_0 : ScatterDims S128x128 S2 S32x32 where
  updateWindowDims := [0, 1]
  insertedWindowDims := []
  scatterDimsToOperandDims := [0, 1]
  indexVectorDim := 0
  wf := scatter_S128x128_S2_S32x32_01_n_01_0_wf
def scatter_S128x128_S96x32x2_S96x32_n_01_01_2 : ScatterDims S128x128 S96x32x2 S96x32 where
  updateWindowDims := []
  insertedWindowDims := [0, 1]
  scatterDimsToOperandDims := [0, 1]
  indexVectorDim := 2
  wf := scatter_S128x128_S96x32x2_S96x32_n_01_01_2_wf
def dot_S128x128_S128x524288_S128x524288_1_0_0_1_n_n : DotDims S128x128 S128x524288 S128x524288 where
  lhsContracting := [1]
  rhsContracting := [0]
  lhsNonContracting := [0]
  rhsNonContracting := [1]
  lhsBatch := []
  rhsBatch := []
  wf := dot_S128x128_S128x524288_S128x524288_1_0_0_1_n_n_wf

class Facts : Prop extends Facts₀ where

variable [Facts]
-- ==== Proof.Mix.lean ====
/-
  The mixing of time steps, as one function. A weight matrix `W` of 128 rows and 128 columns acts on an array
  `X` of 128 time steps, each a table of 8192 nodes by 64 features:

      out(t, n, f) = ∑ s, W(t, s) · X(s, n, f).

  Flattening a table to one row of 8192 · 64 = 524288 entries turns this into the plain matrix product
  `flat(t, c) = ∑ s, W(t, s) · X₂(s, c)` with `c = 64 n + f`; the two are the same numbers because the flattening
  and its inverse move entries along the row-major order and touch no time step.
-/
import Idealize.ShloMosaic.PureOps.Ideal
import Idealize.ShloMosaic.Lib.ValueIdx
import Idealize.ShloMosaic.Lib.Pipeline.Value

noncomputable section

namespace Cert.Mix

open Idealize.ShloMosaic Idealize.ShloMosaic.ValueIdx

/-- The weights: 128 output steps by 128 input steps. -/
abbrev SW : Shape := ⟨2, ![128, 128]⟩
/-- The data with each table flattened to a row. -/
abbrev SFlat : Shape := ⟨2, ![128, 524288]⟩
/-- The data: steps, nodes, features. -/
abbrev SData : Shape := ⟨3, ![128, 8192, 64]⟩

/-- The plain product of the weights with the flattened data. -/
def flatMix (W : SW.Idx → EReal) (X : SFlat.Idx → EReal) : SFlat.Idx → EReal :=
  fun j => ∑ k : Fin 128, W (ix2 (j 0) k) * X (ix2 k (j 1))

/-- The weighted sum over input steps, table entry by table entry. -/
def mix (W : SW.Idx → EReal) (X : SData.Idx → EReal) : SData.Idx → EReal :=
  fun i => ∑ k : Fin 128, W (ix2 (i 0) k) * X (ix3 k (i 1) (i 2))

/-- Flatten, multiply, unflatten is `mix`: entry (t, n, f) sits at column 64 n + f of row t, and the product at that
    column reads column 64 n + f of every row s, which is entry (s, n, f). -/
theorem unflatten_flatMix (W : SW.Idx → EReal) (X : SData.Idx → EReal)
    (h₁ : SData.ShapeCasts SFlat) (h₂ : SFlat.ShapeCasts SData) :
    shapeCast SData (flatMix W (shapeCast SFlat X h₁)) h₂ = mix W X := by
  funext i
  have h0 : (i 0).val < 128 := (i 0).isLt
  have h1 : (i 1).val < 8192 := (i 1).isLt
  have h2 : (i 2).val < 64 := (i 2).isLt
  rw [shapeCast_apply (flatMix W (shapeCast SFlat X h₁)) h₂ i
    (ix2 (i 0) ⟨(i 1).val * 64 + (i 2).val, by omega⟩)
    (by rw [Shape.rowMajor_val_two, Shape.rowMajor_val_three]
        show (i 0).val * 524288 + ((i 1).val * 64 + (i 2).val) = ((i 0).val * 8192 + (i 1).val) * 64 + (i 2).val
        omega)]
  unfold flatMix mix
  refine Finset.sum_congr rfl fun k _ => ?_
  have hk : k.val < 128 := k.isLt
  rw [shapeCast_apply X h₁ (ix2 k (⟨(i 1).val * 64 + (i 2).val, by omega⟩ : Fin 524288)) (ix3 k (i 1) (i 2))
    (by rw [Shape.rowMajor_val_three, Shape.rowMajor_val_two]
        show (k.val * 8192 + (i 1).val) * 64 + (i 2).val = k.val * 524288 + ((i 1).val * 64 + (i 2).val)
        omega)]

end Cert.Mix

end
-- ==== Proof.RefMix.lean ====
/-
  The reference computes `mix`: it builds its weight matrix from the two parameter tables, flattens each table of the
  data to a row, takes the plain matrix product and unflattens. The weight matrix is kept as the one term the program
  computes it by (the generated stage `val_main_v64`); nothing here looks inside it.
-/
import proofs.«125299_j66675072303670_2_alg».proof.Proof.Gen.ReferenceIdeal.Read
import proofs.«125299_j66675072303670_2_alg».proof.Proof.Mix

noncomputable section

namespace Cert.ReferenceIdeal.RefValue

open Cert.ReferenceIdeal Cert.ReferenceIdeal.Read Idealize.ShloMosaic Idealize.ShloMosaic.ValueIdx

/-- The host's product of the weights with the flattened data is the plain sum over input steps. -/
theorem product_eq (x0 : S128x8192x64.Idx → EReal) (x1 : S32x32.Idx → EReal) (x2 : S95x32.Idx → EReal) :
    val_main_v66 (F := Ideal) x0 x1 x2 = Cert.Mix.flatMix (val_main_v64 (F := Ideal) x1 x2) (val_main_v65 (F := Ideal) x0) := by
  funext j
  rw [val_main_v66_apply]
  unfold Cert.Mix.flatMix
  refine Finset.sum_congr rfl fun k _ => ?_
  have el : lidx_main_v66 j k = ix2 (j 0) k := funext fun a => by
    match a with
    | ⟨0, _⟩ => rfl
    | ⟨1, _⟩ => rfl
  have er : ridx_main_v66 j k = ix2 k (j 1) := funext fun a => by
    match a with
    | ⟨0, _⟩ => rfl
    | ⟨1, _⟩ => rfl
  rw [el, er]
  rfl

/-- The reference's result is `mix` of its weight matrix and the data. -/
theorem result_eq (x0 : S128x8192x64.Idx → EReal) (x1 : S32x32.Idx → EReal) (x2 : S95x32.Idx → EReal) :
    val_main_v67 (F := Ideal) x0 x1 x2 = Cert.Mix.mix (val_main_v64 (F := Ideal) x1 x2) x0 := by
  unfold val_main_v67
  rw [product_eq]
  unfold val_main_v65
  exact Cert.Mix.unflatten_flatMix _ _ _ _

end Cert.ReferenceIdeal.RefValue

end
-- ==== Proof.BlockProduct.lean ====
/-
  One tile of the kernel: the body multiplies the whole weight matrix (128 × 128) with a tile of 8192 columns of the
  flattened data (128 × 8192) and stores the product. The data tile is narrowed to a shorter float format first and the
  product is accumulated from zero; on the extended reals the narrowing changes nothing and the zero start adds
  nothing, so entry (p, q) of the tile is the plain sum ∑ k, w(p, k) · x(k, q).
-/
import proofs.«125299_j66675072303670_2_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.Tile

open Cert.KernelIdeal Cert.KernelIdeal.Gen Idealize.ShloMosaic Idealize.ShloMosaic.ValueIdx

/-- The product's left factor at output (p, q) and contraction step k is entry (p, k): first coordinate. -/
theorem lhs_0 (i : S128x8192.Idx) (q : dot_S128x128_S128x8192_S128x8192_1_0_0_1_n_n.contr.Idx) :
    (dot_S128x128_S128x8192_S128x8192_1_0_0_1_n_n.lhsIdx i q 0).val = (i 0).val := by
  unfold DotDims.lhsIdx
  rw [dif_neg (show ¬(0 : Fin S128x128.rank) ∈ dot_S128x128_S128x8192_S128x8192_1_0_0_1_n_n.lhsBatch by decide), dif_pos (show (0 : Fin S128x128.rank) ∈ dot_S128x128_S128x8192_S128x8192_1_0_0_1_n_n.lhsNonContracting by decide)]
  rfl
/-- Second coordinate of the left factor: the contraction step. -/
theorem lhs_1 (i : S128x8192.Idx) (q : dot_S128x128_S128x8192_S128x8192_1_0_0_1_n_n.contr.Idx) :
    (dot_S128x128_S128x8192_S128x8192_1_0_0_1_n_n.lhsIdx i q 1).val = (q ⟨0, by decide⟩).val :=
  dot_S128x128_S128x8192_S128x8192_1_0_0_1_n_n.lhsIdx_val_of_single rfl i q
/-- The right factor is entry (k, q): first coordinate the contraction step. -/
theorem rhs_0 (i : S128x8192.Idx) (q : dot_S128x128_S128x8192_S128x8192_1_0_0_1_n_n.contr.Idx) :
    (dot_S128x128_S128x8192_S128x8192_1_0_0_1_n_n.rhsIdx i q 0).val = (q ⟨0, by decide⟩).val :=
  dot_S128x128_S128x8192_S128x8192_1_0_0_1_n_n.rhsIdx_val_of_single rfl i q
/-- Second coordinate of the right factor: the output's column. -/
theorem rhs_1 (i : S128x8192.Idx) (q : dot_S128x128_S128x8192_S128x8192_1_0_0_1_n_n.contr.Idx) :
    (dot_S128x128_S128x8192_S128x8192_1_0_0_1_n_n.rhsIdx i q 1).val = (i 1).val := by
  unfold DotDims.rhsIdx
  rw [dif_neg (show ¬(1 : Fin S128x8192.rank) ∈ dot_S128x128_S128x8192_S128x8192_1_0_0_1_n_n.rhsBatch by decide), dif_pos (show (1 : Fin S128x8192.rank) ∈ dot_S128x128_S128x8192_S128x8192_1_0_0_1_n_n.rhsNonContracting by decide)]
  rfl

/-- Entry (p, q) of the stored tile is the plain sum over the 128 input steps. -/
theorem tile_apply (x0 : Vec Ideal S128x128 .bf16) (x1 : Vec Ideal S128x8192 .f32) (p : Fin 128) (q : Fin 8192) :
    k0_pay1 (F := Ideal) x0 x1 (ix2 p q) = ∑ k : Fin 128, x0 (ix2 p k) * x1 (ix2 k q) := by
  unfold k0_pay1
  simp only [shapeCast_self]
  show FloatOps.matmul dot_S128x128_S128x8192_S128x8192_1_0_0_1_n_n none x0 x1 (constant (F := Ideal) S128x8192 .f32 0x00000000#32) (ix2 p q) = _
  rw [Ideal.matmul_constant_zero_apply, ← Equiv.sum_comp (contrEquiv1 dot_S128x128_S128x8192_S128x8192_1_0_0_1_n_n 128 rfl rfl).symm]
  refine Finset.sum_congr rfl fun k _ => ?_
  have hk := contrEquiv1_symm_val dot_S128x128_S128x8192_S128x8192_1_0_0_1_n_n 128 rfl rfl k
  have el : dot_S128x128_S128x8192_S128x8192_1_0_0_1_n_n.lhsIdx (ix2 p q) ((contrEquiv1 dot_S128x128_S128x8192_S128x8192_1_0_0_1_n_n 128 rfl rfl).symm k) = ix2 p k := funext fun a => Fin.ext (by
    match a with
    | ⟨0, _⟩ => exact lhs_0 _ _
    | ⟨1, _⟩ => exact (lhs_1 _ _).trans hk)
  have er : dot_S128x128_S128x8192_S128x8192_1_0_0_1_n_n.rhsIdx (ix2 p q) ((contrEquiv1 dot_S128x128_S128x8192_S128x8192_1_0_0_1_n_n 128 rfl rfl).symm k) = ix2 k q := funext fun a => Fin.ext (by
    match a with
    | ⟨0, _⟩ => exact (rhs_0 _ _).trans hk
    | ⟨1, _⟩ => exact rhs_1 _ _)
  rw [el, er]

end Cert.KernelIdeal.Tile

end
-- ==== Proof.KernelArray.lean ====
/-
  From tiles to the array. The kernel walks 64 grid points; point `t` holds the whole weight matrix, columns
  8192 t … 8192 t + 8191 of the flattened data, and writes the same columns of the result. What it writes is, by the
  tile lemma, the plain product restricted to those columns; the 64 column ranges cover every column, so the result array
  ends as the plain product `flatMix` of the two arrays the region finds.
-/
import proofs.«125299_j66675072303670_2_alg».proof.Proof.Gen.KernelIdeal.Frame
import proofs.«125299_j66675072303670_2_alg».proof.Proof.BlockProduct
import proofs.«125299_j66675072303670_2_alg».proof.Proof.Mix
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (m : (ℓ : Loc nD τ sig) → Buf (Elt Ideal) ℓ) (ρ : Dev nD → PrngReg)

theorem hz : (![0, 0] : Fin 2 → Nat) = fun _ => 0 := funext fun a => by fin_cases a <;> rfl

/-- Where each window's block sits at grid point `t`: the weights always at the origin, the data and the result at
    column block `t`. -/
theorem idx_facts : ∀ t : Fin cfg0.N, win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val :=
  (by decide +kernel : ∀ t : Fin grid0.N, _)

/-- The tile lemma at any index of the tile. -/
theorem tile_at (x0 : Vec Ideal S128x128 .bf16) (x1 : Vec Ideal S128x8192 .f32) (y : S128x8192.Idx) :
    k0_pay1 (F := Ideal) x0 x1 y = ∑ k : Fin 128, x0 (ix2 (y 0) k) * x1 (ix2 k (y 1)) :=
  (congrArg (k0_pay1 (F := Ideal) x0 x1) (eq_ix2 y)).trans (Cert.KernelIdeal.Tile.tile_apply x0 x1 (y 0) (y 1))

/-- The weight array as the region finds it (the host lines before the region have computed it). -/
def weightsIn (c : Dev nD) : S128x128.Idx → EReal := V m c main_call0_v65
/-- The flattened data array as the region finds it. -/
def dataIn (c : Dev nD) : S128x524288.Idx → EReal := V m c main_call0_v66

/-- The weights' block at any point is the array read through the block's rectangle. -/
theorem weights_block (c : Dev nD) (t : Fin cfg0.N) (y : S128x128.Idx) :
    (iblk m c 0 t : S128x128.Idx → EReal) y = weightsIn m c (((cfg0.win 0).blk t).view.emb y) := rfl
/-- The data's block likewise. -/
theorem data_block (c : Dev nD) (t : Fin cfg0.N) (y : S128x8192.Idx) :
    (iblk m c 1 t : S128x8192.Idx → EReal) y = dataIn m c (((cfg0.win 1).blk t).view.emb y) := rfl

/-- The plain product of the weight array and the flattened data array as the region finds them. -/
def flat (c : Dev nD) : S128x524288.Idx → EReal :=
  Cert.Mix.flatMix (weightsIn m c) (dataIn m c)

theorem flat_apply (c : Dev nD) (i : S128x524288.Idx) :
    flat m c i = ∑ k : Fin 128, weightsIn m c (ix2 (i 0) k) * dataIn m c (ix2 k (i 1)) := rfl

/-- What grid point `t` writes back is its block of `flat`. -/
theorem flushed_eq (c : Dev nD) (t : Fin cfg0.N) :
    (dats m 0 c).flushed 2 t = ((cfg0.win 2).blk t).view.read (Elt Ideal) (flat m c) := by
  show (cfg0.win 2).cut (grid0.coords t) ((dats m 0 c).after 2 t) = _
  rw [after0_2]
  unfold out0_2
  rw [View.canon_unit_zero hz]
  simp only [View.ld_unit_zero (S := S128x128) hz, View.ld_unit_zero (S := S128x8192) hz]
  obtain ⟨e0, e1, e2, e3, e4, e5⟩ := idx_facts t
  funext j
  have hj0 : (j 0).val < 128 := (j 0).isLt
  have hj1 : (j 1).val < 8192 := (j 1).isLt
  show k0_pay1 (F := Ideal) (iblk m c 0 t) (iblk m c 1 t) j = flat m c (((cfg0.win 2).blk t).view.emb j)
  rw [tile_at, flat_apply]
  refine Finset.sum_congr rfl fun k _ => ?_
  have hk : k.val < 128 := k.isLt
  have hw : (iblk m c 0 t : S128x128.Idx → EReal) (ix2 (j 0) k) = weightsIn m c (ix2 ((((cfg0.win 2).blk t).view.emb j) 0) k) := by
    rw [weights_block]
    refine congrArg (weightsIn m c) (funext fun a => Fin.ext ?_)
    match a with
    | ⟨0, _⟩ => show win0_0.index t (0 : Fin 2) * 128 + 1 * (j 0).val = win0_2.index t (0 : Fin 2) * 128 + 1 * (j 0).val; omega
    | ⟨1, _⟩ => show win0_0.index t (1 : Fin 2) * 128 + 1 * k.val = k.val; omega
  have hx : (iblk m c 1 t : S128x8192.Idx → EReal) (ix2 k (j 1)) = dataIn m c (ix2 k ((((cfg0.win 2).blk t).view.emb j) 1)) := by
    rw [data_block]
    refine congrArg (dataIn m c) (funext fun a => Fin.ext ?_)
    match a with
    | ⟨0, _⟩ => show win0_1.index t (0 : Fin 2) * 128 + 1 * k.val = k.val; omega
    | ⟨1, _⟩ => show win0_1.index t (1 : Fin 2) * 8192 + 1 * (j 1).val = win0_2.index t (1 : Fin 2) * 8192 + 1 * (j 1).val; omega
  rw [hw, hx]

/-- An index of the result array is in point `t`'s block iff each coordinate is in the block's range. -/
theorem mem_blk (t : Fin cfg0.N) (i : S128x524288.Idx) :
    i ∈ ((cfg0.win 2).blk t).view.set ↔ ∀ a : Fin 2, win0_2.index t a * S128x8192.size a ≤ (i a).val ∧ (i a).val < win0_2.index t a * S128x8192.size a + S128x8192.size a := by
  show i ∈ ((View.whole main_call0_v67).slice (win0_2.rect t)).set ↔ _
  rw [View.set_slice_whole, Rect.mem_set_unit]
  exact Iff.rfl

/-- Every column lies in one of the 64 column blocks: column `q` in block `q / 8192`. -/
theorem cover (i : S128x524288.Idx) :
    ∃ t : Fin cfg0.N, (cfg0.win 2).flush t = true ∧ i ∈ ((cfg0.win 2).blk t).view.set := by
  have hi0 : (i 0).val < 128 := (i 0).isLt
  have hi1 : (i 1).val < 524288 := (i 1).isLt
  have hN : cfg0.N = 64 := N_0
  let t : Fin cfg0.N := ⟨(i 1).val / 8192, by rw [hN]; omega⟩
  obtain ⟨e0, e1, e2, e3, e4, e5⟩ := idx_facts t
  have e5' : win0_2.index t (1 : Fin 2) = (i 1).val / 8192 := e5
  refine ⟨t, flush0_2 t, ?_⟩
  rw [mem_blk]
  intro a
  match a with
  | ⟨0, _⟩ => show win0_2.index t (0 : Fin 2) * 128 ≤ (i 0).val ∧ (i 0).val < win0_2.index t (0 : Fin 2) * 128 + 128; omega
  | ⟨1, _⟩ => show win0_2.index t (1 : Fin 2) * 8192 ≤ (i 1).val ∧ (i 1).val < win0_2.index t (1 : Fin 2) * 8192 + 8192; omega

/-- The result array after the run is the plain product of the two arrays the region finds. -/
theorem final (c : Dev nD) : (dats m 0 c).arrAt 2 cfg0.N = flat m c :=
  (dats m 0 c).arrAt_eq_of_cover 2 (flat m c) (fun t _ => flushed_eq m c t) (cover)

end Cert.KernelIdeal.Hand

end
-- ==== Proof.LibTypedRef.lean ====
/-
  CONTENTS AT A TYPED REFERENCE'S VALUE TYPE AND AT ITS BUFFER'S OWN TYPE.

  A host function whose operations are listed inside its caller names its buffers by typed references: a buffer together with
  the equation that the buffer's type is the value type `T` it is used at. Such an operation reads a buffer's contents
  moved along that equation to `T` (`ofBuf`) and writes its result moved back (`toBuf`). Both moves are the identity up
  to the equation. Stated here for every typed reference:
  • moved to the buffer's type and back, contents are what they were (`ofBuf_toBuf`);
  • contents moved either way are equal to whatever they are heterogeneously equal to (`ofBuf_eq`, `toBuf_eq`) — for a
    literal reference the two types are the same by computation, so the side condition is then reflexivity.
  The proofs take the reference apart and substitute the equation, which is possible because `T` is a variable here;
  nothing about any particular buffer table is evaluated.
-/
import Idealize.ShloMosaic.Lib.StableHlo

noncomputable section

namespace Cert.TypedRef

open Idealize.ShloMosaic Idealize.ShloMosaic.StableHlo

variable {sig : RefSig} {Val : EltTy → Type} {T : BufTy}

/-- Contents moved to the buffer's own type and back are what they were. -/
theorem ofBuf_toBuf (x : TRef sig T) (v : T.Contents Val) : x.ofBuf (x.toBuf v) = v := by
  obtain ⟨r, te, od, us⟩ := x
  subst te
  rfl

/-- The buffer's contents read at the value type are any value of that type they are heterogeneously equal to. -/
theorem ofBuf_eq (x : TRef sig T) (w' : x.ref.ty.Contents Val) (w : T.Contents Val) (h : HEq w' w) : x.ofBuf w' = w :=
  eq_of_heq ((cast_heq _ w').trans h)

/-- A value written at the buffer's own type is any contents of the buffer it is heterogeneously equal to. -/
theorem toBuf_eq (x : TRef sig T) (v : T.Contents Val) (w' : x.ref.ty.Contents Val) (h : HEq v w') : x.toBuf v = w' :=
  eq_of_heq ((cast_heq _ v).trans h)

end Cert.TypedRef

end
-- ==== Proof.KernelRun.lean ====
/-
  The kernel program's run, read. Before the region the host lines compute the weight matrix from the two parameter
  tables — by the same operations, in the same order, as the reference does — and flatten each table of the data to a
  row; the region leaves the plain product in the result array (the tiles' cover); the one host line after the region
  unflattens it. So the program ends with `mix` of the weight matrix and the data in its result, the arguments
  unchanged.
-/
import proofs.«125299_j66675072303670_2_alg».proof.Proof.Gen.KernelIdeal.Frame
import proofs.«125299_j66675072303670_2_alg».proof.Proof.Gen.ReferenceIdeal.Read
import proofs.«125299_j66675072303670_2_alg».proof.Proof.KernelArray
import proofs.«125299_j66675072303670_2_alg».proof.Proof.Mix
import proofs.«125299_j66675072303670_2_alg».proof.Proof.LibTypedRef
import Idealize.ShloMosaic.Lib.StableHlo.Run

set_option maxRecDepth 16384

noncomputable section

open Idealize.ShloMosaic Idealize.ShloMosaic.TcCoe Idealize.SL.Sem Idealize.ShloMosaic.StableHlo
open Idealize.ShloMosaic.Pipeline (Dat)

namespace Cert.KernelIdeal.Hand

open Cert.KernelIdeal Cert.KernelIdeal.Gen

variable (m : (ℓ : Loc nD τ sig) → Buf (Elt Ideal) ℓ) (ρ : Dev nD → PrngReg)

/-- Narrowing a float array to a shorter format changes nothing on the extended reals. -/
theorem truncf_ideal {s : Shape} {φ : FTy} (ψ : FTy) (x : FVec Ideal s φ) (h : ψ.bits < φ.bits) :
    (truncf (F := Ideal) ψ x h : s.Idx → EReal) = x := rfl

/-- A scatter of equal updates at equal places into equal arrays, under equal dimension records. -/
theorem scatter_congr {α : Type} {s si u : Shape} {w : Nat} (d d' : ScatterDims s si u) (hd : d = d') (f : α → α → α)
    (x x' : s.Idx → α) (hx : x = x') (i i' : IVec si w) (hi : i = i') (up up' : u.Idx → α) (hu : up = up') :
    Host.scatter d f x i up = Host.scatter d' f x' i' up' := by
  subst hd hx hi hu; rfl

/-- The weights of the time mixing, as a function of the two parameter tables: the term both programs compute (two
    row-wise softmaxes — a masked one for the first 32 steps, a plain one for the 96 later steps — scattered into a
    zero matrix along a band). Named by the reference's stage; the kernel's host lines are the same operations. -/
abbrev weights (c : Dev nD) : S128x128.Idx → EReal :=
  Cert.ReferenceIdeal.Read.val_main_v64 (F := Ideal) (m ((c : Thread nD τ).loc main_arg1)) (m ((c : Thread nD τ).loc main_arg2))

set_option maxHeartbeats 1000000 in
/-- The weight array the region finds is `weights`: the host lines before the region, read back, are line for line the
    reference's, and the last narrowing is the identity. The lines are those of a called function, whose values sit at
    typed references: moving contents to a reference's type and back is the identity. The two scatters are matched
    operand by operand; every operand is the same operation tree of the same arguments. -/
theorem weightsIn_eq (c : Dev nD) : weightsIn m c = weights m c := by
  unfold weightsIn weights
  show StableHlo.after hostOps0 (fun b => m (c, b)) (Proc.devRef .tc main_call0_v65) = _
  after_results_simp
  simp only [Cert.TypedRef.ofBuf_toBuf]
  refine Cert.TypedRef.toBuf_eq _ _ _ (heq_of_eq ?_)
  refine (truncf_ideal (φ := .f32) .bf16 _ bitsLt_bf16_f32).trans ?_
  unfold Cert.ReferenceIdeal.Read.val_main_v64
  refine scatter_congr _ _ rfl _ _ _ ?_ _ _ rfl _ _ rfl
  unfold Cert.ReferenceIdeal.Read.val_main_v36
  exact scatter_congr _ _ rfl _ _ _ rfl _ _ rfl _ _ rfl

set_option maxHeartbeats 1000000 in
/-- The data array the region finds is the data with each table flattened to a row. -/
theorem dataIn_eq (c : Dev nD) :
    dataIn m c = shapeCast S128x524288 (m ((c : Thread nD τ).loc main_arg0)) shapeCasts_S128x8192x64_S128x524288 := by
  unfold dataIn
  show StableHlo.after hostOps0 (fun b => m (c, b)) (Proc.devRef .tc main_call0_v66) = _
  after_results_simp
  rfl

/-- The program's result: the one host line after the region unflattens the result array, which the region left at
    the plain product. -/
theorem tail_eq (c : Dev nD) :
    Pipeline.afterTail₀ cfgs (dats m) 0 (V0 m) [hostOps1] c main_v0
      = shapeCast S128x8192x64 (flat m c) shapeCasts_S128x524288_S128x8192x64 := by
  unfold Pipeline.afterTail₀
  show StableHlo.after hostOps1 _ (Proc.devRef .tc main_v0) = _
  after_results
  exact congrArg (fun z => shapeCast S128x8192x64 z shapeCasts_S128x524288_S128x8192x64)
    ((Pipeline.withArrays_arr spec0 launch0.win.arr_inj c _ _ 2).trans (final m c))

/-- So the result is `mix` of the weights and the data. -/
theorem result_eq (c : Dev nD) :
    Pipeline.afterTail₀ cfgs (dats m) 0 (V0 m) [hostOps1] c main_v0
      = Cert.Mix.mix (weights m c) (m ((c : Thread nD τ).loc main_arg0)) := by
  rw [tail_eq]
  unfold flat
  rw [weightsIn_eq, dataIn_eq]
  exact Cert.Mix.unflatten_flatMix _ _ _ _

/-- The run: every weakly fair execution ends with the result array at `mix` of the weights and the data, and the
    three arguments as they were. -/
theorem run : θ_run defs (onTc (τ := τ) (main (F := Ideal))) ⟨m, fun _ => 0, ρ⟩ fun r => ∀ c : Dev nD,
      r.2.mem ((c.tc : Thread nD τ).loc main_v0) = Cert.Mix.mix (weights m c) (m ((c : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v0 (Pipeline.mem_restRefs_of main_v0 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c)⟩)
    (run_main m ρ)

end Cert.KernelIdeal.Hand

end
-- ==== Proof.lean ====
/-
  A causal mixing of 128 time steps: `out(t, n, f) = ∑ s, W(t, s) · X(s, n, f)`, where the 128 × 128 weight matrix `W` is
  built from two parameter tables by row-wise softmaxes scattered along a band.

  Both programs build `W` by the same host operations in the same order, so `W` enters the proof as ONE term and is never
  opened. The reference then flattens each table of `X` to a row, takes the plain matrix product and unflattens. The
  kernel program flattens the same way, narrows `W` to a shorter float format (the identity on the extended reals), and
  computes the product tile by tile — 64 tiles of 8192 columns, each tile the whole of `W` times 8192 columns of the
  flattened data, accumulated from zero — and unflattens. A product's entry depends on its own column of the data only, so
  the tiles are the restrictions of the one plain product, and they cover every column. Hence both results are
  `Cert.Mix.mix W X`, entry by entry, for every extended-real input: no finiteness is used.

  The modules: Mix (the function and "flatten, multiply, unflatten is mix"), RefMix (the reference computes it),
  BlockProduct (one tile), KernelArray (tiles to the array), KernelRun (the host lines around the region and the run).
-/
import proofs.«125299_j66675072303670_2_alg».proof.Defs
import proofs.«125299_j66675072303670_2_alg».proof.Proof.Gen.Kernel
import proofs.«125299_j66675072303670_2_alg».proof.Proof.Gen.Kernel.Skeleton
import proofs.«125299_j66675072303670_2_alg».proof.Proof.Gen.Kernel.Launch
import proofs.«125299_j66675072303670_2_alg».proof.Proof.Gen.Kernel.Points
import proofs.«125299_j66675072303670_2_alg».proof.Proof.Gen.Kernel.Frame
import proofs.«125299_j66675072303670_2_alg».proof.Proof.Gen.KernelIdeal
import proofs.«125299_j66675072303670_2_alg».proof.Proof.Gen.KernelIdeal.Skeleton
import proofs.«125299_j66675072303670_2_alg».proof.Proof.Gen.KernelIdeal.Launch
import proofs.«125299_j66675072303670_2_alg».proof.Proof.Gen.KernelIdeal.Points
import proofs.«125299_j66675072303670_2_alg».proof.Proof.Gen.KernelIdeal.Frame
import proofs.«125299_j66675072303670_2_alg».proof.Proof.Gen.ReferenceIdeal
import proofs.«125299_j66675072303670_2_alg».proof.Proof.Gen.Pre_finite_inputs
import proofs.«125299_j66675072303670_2_alg».proof.Proof.Gen.ReferenceIdeal.Run
import proofs.«125299_j66675072303670_2_alg».proof.Proof.Gen.ReferenceIdeal.Read
import proofs.«125299_j66675072303670_2_alg».proof.Proof.RefMix
import proofs.«125299_j66675072303670_2_alg».proof.Proof.KernelRun
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From arguments that agree, both programs end with `mix` of the one weight matrix and the data. -/
theorem algebraic : Cert.algebraic_KernelIdeal_ReferenceIdeal := by
  intro m ρ m' ρ' _ hagree
  refine ⟨fun c => Cert.Mix.mix (Cert.KernelIdeal.Hand.weights m c)
      (m ((c.tc : Thread Cert.KernelIdeal.nD Cert.KernelIdeal.τ).loc Cert.KernelIdeal.main_arg0)),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v67_eq, Cert.ReferenceIdeal.RefValue.result_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
